-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S256x128 : Shape := ⟨2, ![256, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S1600000x128 : Shape := ⟨2, ![1600000, 128]⟩
abbrev S100000x256 : Shape := ⟨2, ![100000, 256]⟩
abbrev S1x128 : Shape := ⟨2, ![1, 128]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S1600000 : S_.BroadcastsInDim S1600000 (![] : Fin 0 → Fin S1600000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  reducesTo_S100000_S_d0 : S100000.ReducesTo [0] S_
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def fn_part2 {F : FTy → Type} [FloatOps F] (main_arg0 : FVec F S100000x128 .f32) (main_arg1 : FVec F S256x128 .f32) (main_arg2 : FVec F S128 .f32) (main_v13 : IVec S_ 1) (main_v33 : FVec F S100000x128 .f32) (main_v34 : FVec F S100000x128 .f32) : IVec S_ 1 :=
  let main_v35 : FVec F S100000x128 .f32 := mulf main_v33 main_v34
  let main_v36 : FVec F S100000x256 .f32 := (fun a b => concatenate S100000x256 1 [⟨S100000x128, a⟩, ⟨S100000x128, b⟩] concatenates_S100000x128_S100000x128_S100000x256_d1) main_arg0 main_v35
  let main_v37 : FVec F S100000x128 .f32 := (fun l r => Host.dotGeneral dot_S100000x256_S256x128_S100000x128_1_0_0_1_n_n none l r) main_v36 main_arg1
  let main_v38 : FVec F S1x128 .f32 := broadcastInDim S1x128 ![1] bcast_S128_S1x128_1 main_arg2
  let main_v39 : FVec F S100000x128 .f32 := broadcastInDim S100000x128 ![0, 1] bcast_S1x128_S100000x128_0_1 main_v38
  let main_v40 : FVec F S100000x128 .f32 := addf main_v37 main_v39
  let main_v41 : FVec F S100000x128 .f32 := mulf main_v40 main_v40
  let main_cst_11 : FVec F S_ .f32 := constant S_ .f32 0x00000000#32
  let main_v42 : FVec F S100000 .f32 := (fun x v => Host.reduceAdd x v reducesTo_S100000x128_S100000_d1 h_S_) main_v41 main_cst_11
  let main_cst_12 : FVec F S_ .f32 := constant S_ .f32 0x00000000#32
  let main_v43 : FVec F S100000 .f32 := broadcastInDim S100000 ![] bcast_S_S100000 main_cst_12
  let main_v44 : IVec S100000 1 := cmpf .ogt main_v42 main_v43
  let main_c_13 : IVec S_ 1 := constantI S_ 1 1#1
  let main_v45 : IVec S_ 1 := (fun x v => Host.reduce IntOp.andi x v reducesTo_S100000_S_d0 h_S_) main_v44 main_c_13
  let main_v46 : IVec S_ 1 := andi main_v13 main_v45
  main_v46

def fn_part1 {F : FTy → Type} [FloatOps F] (main_arg0 : FVec F S100000x128 .f32) (main_arg1 : FVec F S256x128 .f32) (main_arg2 : FVec F S128 .f32) (main_arg3 : IVec S1600000 32) (main_v13 : IVec S_ 1) (main_v14 : IVec S1600000x1 32) (main_v15 : FVec F S100000 .f32) (main_cst_5 : FVec F S_ .f32) : IVec S_ 1 :=
  let main_v16 : FVec F S1600000 .f32 := broadcastInDim S1600000 ![] bcast_S_S1600000 main_cst_5
  let main_v17 : FVec F S100000 .f32 := (fun x i u => Host.scatterAdd scatter_S100000_S1600000x1_S1600000_n_0_0_1 x i u) main_v15 main_v14 main_v16
  let main_cst_6 : FVec F S_ .f32 := constant S_ .f32 0x3F800000#32
  let main_v18 : FVec F S100000 .f32 := broadcastInDim S100000 ![] bcast_S_S100000 main_cst_6
  let main_v19 : FVec F S100000 .f32 := maximumf main_v18 main_v17
  let main_cst_7 : FVec F S_ .f32 := constant S_ .f32 0xBF000000#32
  let main_v20 : FVec F S100000 .f32 := broadcastInDim S100000 ![] bcast_S_S100000 main_cst_7
  let main_v21 : FVec F S100000 .f32 := Host.powf main_v19 main_v20
  let main_v22 : FVec F S100000x1 .f32 := broadcastInDim S100000x1 ![0] bcast_S100000_S100000x1_0 main_v21
  let main_v23 : FVec F S100000x128 .f32 := broadcastInDim S100000x128 ![0, 1] bcast_S100000x1_S100000x128_0_1 main_v22
  let main_v24 : FVec F S100000x128 .f32 := mulf main_arg0 main_v23
  let main_cst_8 : FVec F S_ .f32 := constant S_ .f32 0x00000000#32
  let main_v25 : FVec F S100000x128 .f32 := broadcastInDim S100000x128 ![] bcast_S_S100000x128 main_cst_8
  let main_c_9 : IVec S_ 32 := constantI S_ 32 0#32
  let main_v26 : IVec S1600000 32 := broadcastInDim S1600000 ![] bcast_S_S1600000 main_c_9
  let main_v27 : IVec S1600000 1 := cmpi .slt main_arg3 main_v26
  let main_c_10 : IVec S_ 32 := constantI S_ 32 100000#32
  let main_v28 : IVec S1600000 32 := broadcastInDim S1600000 ![] bcast_S_S1600000 main_c_10
  let main_v29 : IVec S1600000 32 := addi main_arg3 main_v28
  let main_v30 : IVec S1600000 32 := select main_v27 main_v29 main_arg3
  let main_v31 : IVec S1600000x1 32 := broadcastInDim S1600000x1 ![0] bcast_S1600000_S1600000x1_0 main_v30
  let main_v32 : FVec F S1600000x128 .f32 := (fun x i => Host.gather gather_S100000x128_S1600000x1_S1600000x128_1_0_n_n_0_1_1128 x i) main_v24 main_v31
  let main_v33 : FVec F S100000x128 .f32 := (fun x i u => Host.scatterAdd scatter_S100000x128_S1600000x1_S1600000x128_1_0_0_1 x i u) main_v25 main_v14 main_v32
  let main_v34 : FVec F S100000x128 .f32 := broadcastInDim S100000x128 ![0, 1] bcast_S100000x1_S100000x128_0_1 main_v22
  fn_part2 (F := F) main_arg0 main_arg1 main_arg2 main_v13 main_v33 main_v34

def fn {F : FTy → Type} [FloatOps F] (main_arg0 : FVec F S100000x128 .f32) (main_arg1 : FVec F S256x128 .f32) (main_arg2 : FVec F S128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1600000x1 32 := broadcastInDim S1600000x1 ![0] bcast_S1600000_S1600000x1_0 main_arg4
  let main_cst_4 : FVec F S_ .f32 := constant S_ .f32 0x00000000#32
  let main_v15 : FVec F S100000 .f32 := broadcastInDim S100000 ![] bcast_S_S100000 main_cst_4
  let main_cst_5 : FVec F S_ .f32 := constant S_ .f32 0x3F800000#32
  fn_part1 (F := F) main_arg0 main_arg1 main_arg2 main_arg3 main_v13 main_v14 main_v15 main_cst_5
-- ==== Kernel.lean ====
abbrev S100000x128 : Shape := ⟨2, ![100000, 128]⟩
abbrev S256x128 : Shape := ⟨2, ![256, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x128 : Shape := ⟨2, ![128, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 40
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S256x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x128, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S256x128 : Shape := ⟨2, ![256, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S256x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x128, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x256, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S100000x1, .f32⟩
  | .hbm, ⟨45, _⟩ => ⟨S100000x1, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.KernelPayload.lean ====
/-
  What the kernel body stores, read at one index of its block.

  At a grid point the body holds five loaded blocks: 5000 rows of `h` (`x0`), the same 5000 rows of the aggregated
  features (`x1`), the two 128 × 128 halves of the weight matrix (`x2`, `x3`) and the bias as one row (`x4`). Its two
  matrix products run into zero accumulators, so each is the plain contraction over the 128 shared columns; their sum
  plus the bias row is the block's linear layer `blin r q`. The lane reduction of its squares is the row's sum of squares,
  kept as a column, and the stored value is `blin r q · rsqrt (∑ j, blin r j · blin r j)`. Roundings to bf16 on the way into
  the products are the identity on the extended reals.
-/
import proofs.«114389_j8976481649194_1_alg».proof.Proof.Gen.KernelIdeal.Skeleton
import proofs.«114389_j8976481649194_1_alg».proof.Proof.LibColumnBroadcast
import proofs.«114389_j8976481649194_1_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## A 5000 × 128 by 128 × 128 product into a zero accumulator -/

theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into zero, at row `r` and column `q`: the contraction over the 128 shared columns. -/
theorem matmul_zero_apply {φ₁ φ₂ : FTy} (a : FVec Ideal S5000x128 φ₁) (b : FVec Ideal S128x128 φ₂) (r : Fin 5000) (q : Fin 128) :
    matmul (F := Ideal) dot_S5000x128_S128x128_S5000x128_1_0_0_1_n_n none a b (constant S5000x128 .f32 0x00000000#32) (ix2 r q)
      = ∑ k : Fin 128, a (ix2 r k) * b (ix2 k q) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q)
      ((ValueIdx.contrEquiv1 dot_S5000x128_S128x128_S5000x128_1_0_0_1_n_n 128 rfl rfl).symm k) = ix2 r k :=
    funext fun ax => Fin.ext (by
      match ax with
      | ⟨0, _⟩ => exact lhs_row _ _
      | ⟨1, _⟩ => exact (lhs_col _ _).trans hk)
  have er : dot_S5000x128_S128x128_S5000x128_1_0_0_1_n_n.rhsIdx (ix2 r q)
      ((ValueIdx.contrEquiv1 dot_S5000x128_S128x128_S5000x128_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-! ## The block's linear layer -/

/-- The linear layer on one block: the two contractions and the bias row. -/
def blin (x0 x1 : Vec Ideal S5000x128 .f32) (x2 x3 : Vec Ideal S128x128 .f32) (x4 : Vec Ideal S1x128 .f32)
    (r : Fin 5000) (q : Fin 128) : EReal :=
  (∑ k : Fin 128, x0 (ix2 r k) * x2 (ix2 k q) + ∑ k : Fin 128, x1 (ix2 r k) * x3 (ix2 k q)) + x4 (ix2 (0 : Fin 1) q)

/-- The body's value before normalization (`%17` of the kernel), as the body spells it. -/
def accv (x0 x1 : Vec Ideal S5000x128 .f32) (x2 x3 : Vec Ideal S128x128 .f32) (x4 : Vec Ideal S1x128 .f32) :
    FVec Ideal S5000x128 .f32 :=
  addf (addf
      (matmul dot_S5000x128_S128x128_S5000x128_1_0_0_1_n_n none (truncf .bf16 x0 bitsLt_bf16_f32)
        (truncf .bf16 (shapeCast S128x128 x2 shapeCasts_S128x128_S128x128) bitsLt_bf16_f32) (constant S5000x128 .f32 0x00000000#32))
      (matmul dot_S5000x128_S128x128_S5000x128_1_0_0_1_n_n none
        (truncf .bf16 (shapeCast S5000x128 x1 shapeCasts_S5000x128_S5000x128) bitsLt_bf16_f32)
        (truncf .bf16 (shapeCast S128x128 x3 shapeCasts_S128x128_S128x128) bitsLt_bf16_f32) (constant S5000x128 .f32 0x00000000#32)))
    (broadcastTo S5000x128 (shapeCast S1x128 x4 shapeCasts_S1x128_S1x128) broadcasts_S1x128_S5000x128)

theorem accv_apply (x0 x1 : Vec Ideal S5000x128 .f32) (x2 x3 : Vec Ideal S128x128 .f32) (x4 : Vec Ideal S1x128 .f32)
    (r : Fin 5000) (q : Fin 128) : accv x0 x1 x2 x3 x4 (ix2 r q) = blin x0 x1 x2 x3 x4 r q := by
  unfold accv blin
  rw [addf_apply, addf_apply, matmul_zero_apply, matmul_zero_apply, shapeCast_self, shapeCast_self, shapeCast_self,
    shapeCast_self, broadcastTo_1b_ab_apply]
  rfl

/-- The lane reduction of a 5000 × 128 block, at row `r`: the sum along the row. -/
theorem lane_sum_apply (v : FVec Ideal S5000x128 .f32) (hφ : FKind.Formats .f32)
    (hacc : (0x00000000#32 : BitVec 32) = FKind.add.neutral .f32 hφ) (r : Fin 5000) :
    multiReduction (F := Ideal) .add [1] S5000 v 0x00000000#32 reduces_S5000x128_S5000 hφ hacc (ix1 r)
      = ∑ j : Fin 128, v (ix2 r j) := by
  refine (Ideal.multiReduction_add_single v 0x00000000#32 reduces_S5000x128_S5000 hφ hacc (ix1 r)).trans ?_
  refine Finset.sum_congr rfl fun j _ => congrArg v (funext fun ax => Fin.ext ?_)
  match ax with
  | ⟨0, _⟩ => rfl
  | ⟨1, _⟩ => rfl

/-- What the body stores at `(r, q)` of its block. -/
theorem pay_apply (x0 x1 : Vec Ideal S5000x128 .f32) (x2 x3 : Vec Ideal S128x128 .f32) (x4 : Vec Ideal S1x128 .f32)
    (r : Fin 5000) (q : Fin 128) :
    k0_pay1 (F := Ideal) x0 x1 x2 x3 x4 (ix2 r q)
      = blin x0 x1 x2 x3 x4 r q * Ideal.rsqrt (∑ j : Fin 128, blin x0 x1 x2 x3 x4 r j * blin x0 x1 x2 x3 x4 r j) := by
  show mulf (accv x0 x1 x2 x3 x4) (broadcastTo S5000x128 (rsqrt (shapeCast S5000x1
      (multiReduction (F := Ideal) .add [1] S5000 (mulf (accv x0 x1 x2 x3 x4) (accv x0 x1 x2 x3 x4)) 0x00000000#32
        reduces_S5000x128_S5000 (.inl rfl) rfl) shapeCasts_S5000_S5000x1)) broadcasts_S5000x1_S5000x128) (ix2 r q) = _
  rw [mulf_apply, broadcastTo_a1_ab_apply, accv_apply]
  show _ * Ideal.rsqrt (shapeCast S5000x1 _ shapeCasts_S5000_S5000x1 (ix2 r (0 : Fin 1))) = _
  rw [Cert.LibKeepdims.shapeCast_a_a1_apply]
  refine congrArg (fun s => _ * Ideal.rsqrt s) ((lane_sum_apply _ _ _ r).trans (Finset.sum_congr rfl fun j _ => ?_))
  rw [mulf_apply, accv_apply]

end Cert.KernelIdeal.Payload

end
-- ==== Proof.HostPrefix.lean ====
/-
  What the kernel's host program has written into the arrays the kernel region reads, when the region is entered.

  Before the region the host program computes the aggregated neighbour features `agg` from `h` and the edge lists (degrees
  by a scatter-add of ones, their clamped inverse square roots, a gather of the scaled source rows, a scatter-add onto the
  destination rows, a second scaling), cuts the weight matrix into its upper and lower 128 rows, and lays the bias out as
  one row. The reference program computes `agg` by the same operations in the same order, so the two are one term: the
  aggregated features are carried as that term and never opened.
-/
import proofs.«114389_j8976481649194_1_alg».proof.Proof.Gen.KernelIdeal.Frame
import proofs.«114389_j8976481649194_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The upper half of the weight matrix: rows 0 … 127. -/
theorem V_upper (c : Dev nD) : (V m c main_v22 : FVec F S128x128 .f32)
    = extractStridedSlice S128x128 ![0, 0] (m ((c : Thread nD τ).loc main_arg1)) slices_S256x128_S128x128_0_0 := by
  dsimp only [V]
  simp only [hostOps0, hostOps0_1, hostOps0_2, List.flatten_cons, List.flatten_nil, List.append_nil, List.cons_append,
    List.nil_append]
  after_results

/-- The lower half: rows 128 … 255. -/
theorem V_lower (c : Dev nD) : (V m c main_v23 : FVec F S128x128 .f32)
    = extractStridedSlice S128x128 ![128, 0] (m ((c : Thread nD τ).loc main_arg1)) slices_S256x128_S128x128_128_0 := by
  dsimp only [V]
  simp only [hostOps0, hostOps0_1, hostOps0_2, List.flatten_cons, List.flatten_nil, List.append_nil, List.cons_append,
    List.nil_append]
  after_results

/-- The bias as one row. -/
theorem V_bias_row (c : Dev nD) : (V m c main_v24 : FVec F S1x128 .f32)
    = shapeCast S1x128 (m ((c : Thread nD τ).loc main_arg2)) shapeCasts_S128_S1x128 := by
  dsimp only [V]
  simp only [hostOps0, hostOps0_1, hostOps0_2, List.flatten_cons, List.flatten_nil, List.append_nil, List.cons_append,
    List.nil_append]
  after_results
  rfl

/-- The aggregated features as the host program computes them, one term of `h` and the two edge lists: the degrees are a
    scatter-add of ones onto the destinations, clamped below at one and raised to the power -1/2; `h` scaled by them row by
    row is gathered at the sources (a negative source index wrapped once by the row count), scatter-added onto the
    destinations, and scaled again. -/
def aggK (x0 : FVec F S100000x128 .f32) (x3 x4 : IVec S1600000 32) : FVec F S100000x128 .f32 :=
  (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 x4) (Host.gather gather_S100000x128_S1600000x1_S1600000x128_1_0_n_n_0_1_1128 (mulf x0 (broadcastInDim S100000x128 ![0, 1] bcast_S100000x1_S100000x128_0_1 (broadcastInDim S100000x1 ![0] bcast_S100000_S100000x1_0 (Host.powf (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 x4) (broadcastInDim S1600000 ![] bcast_S_S1600000 (constant S_ .f32 0x3F800000#32)))) (broadcastInDim S100000 ![] bcast_S_S100000 (constant S_ .f32 0xBF000000#32)))))) (broadcastInDim S1600000x1 ![0] bcast_S1600000_S1600000x1_0 (select (cmpi .slt x3 (broadcastInDim S1600000 ![] bcast_S_S1600000 (constantI S_ 32 0#32))) (addi x3 (broadcastInDim S1600000 ![] bcast_S_S1600000 (constantI S_ 32 100000#32))) x3)))) (broadcastInDim S100000x128 ![0, 1] bcast_S100000x1_S100000x128_0_1 (broadcastInDim S100000x1 ![0] bcast_S100000_S100000x1_0 (Host.powf (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 x4) (broadcastInDim S1600000 ![] bcast_S_S1600000 (constant S_ .f32 0x3F800000#32)))) (broadcastInDim S100000 ![] bcast_S_S100000 (constant S_ .f32 0xBF000000#32))))))

set_option maxRecDepth 8192 in
set_option maxHeartbeats 2000000 in
/-- The region finds the aggregated features at that term of the arguments. -/
theorem V_agg_K (c : Dev nD) : (V m c main_v21 : FVec F S100000x128 .f32)
    = aggK (m ((c : Thread nD τ).loc main_arg0)) (m ((c : Thread nD τ).loc main_arg3)) (m ((c : Thread nD τ).loc main_arg4)) := by
  dsimp only [V]
  simp only [hostOps0, hostOps0_1, hostOps0_2, List.flatten_cons, List.flatten_nil, List.append_nil, List.cons_append,
    List.nil_append]
  after_results_simp <;> rfl <;> (unfold aggK; rfl)

set_option maxRecDepth 8192 in
/-- It is the reference program's own term for them. -/
theorem aggK_eq_ref (x0 : FVec F S100000x128 .f32) (x3 x4 : IVec S1600000 32) :
    aggK x0 x3 x4 = Cert.ReferenceIdeal.Read.val_main_v21 (F := F) x0 x3 x4 := by
  unfold aggK; rfl

/-- The aggregated features: the reference program's own term for them, of the same arguments. -/
theorem V_agg (c : Dev nD) : (V m c main_v21 : FVec F S100000x128 .f32)
    = Cert.ReferenceIdeal.Read.val_main_v21 (F := F) (m ((c : Thread nD τ).loc main_arg0))
        (m ((c : Thread nD τ).loc main_arg3)) (m ((c : Thread nD τ).loc main_arg4)) :=
  (V_agg_K m c).trans (aggK_eq_ref _ _ _)

end Cert.KernelIdeal.HostPrefix

end
-- ==== Proof.Spec.lean ====
/-
  The function both programs compute, stated once over the argument arrays, and the two laws that join their two
  spellings of it.

  For node features `h`, aggregated neighbour features `agg` (both [100000, 128]), a weight matrix `w` [256, 128] and a
  bias `b` [128], the linear layer over the concatenation `[h | agg]` is, at row `p` and column `q`,
      lin p q = (∑ k < 128, h[p,k] · w[k,q]  +  ∑ k < 128, agg[p,k] · w[128 + k, q]) + b[q],
  the contraction over the 256 concatenated columns cut at the seam. Each row is then scaled by the reciprocal square root
  of its sum of squares: out[p,q] = lin p q · rsqrt (∑ j, lin p j · lin p j).

  Law 1 (`sum_seam`): a sum over 256 indices is the sum over the first 128 plus the sum over the last 128 — true in any
  commutative monoid, so in the extended reals with no finiteness assumed.
  Law 2 (`mul_rsqrt_eq_div_sqrt`): for an extended real `s > 0`, `x · rsqrt s = x / sqrt s`. For a positive real `s` both are
  `x · (√s)⁻¹`; for `s = +∞` both are `x · 0`. (At `s = 0` the law fails for `x = 0`: `0 · ∞ = 0` but `0 / 0` is the junk `-∞`;
  that is the row the precondition excludes.)
-/
import Idealize.ShloMosaic.PureOps.Ideal
import Idealize.ShloMosaic.PureOps.Ideal.Laws
import Idealize.ShloMosaic.Lib.ValueIdx

noncomputable section

open scoped BigOperators

namespace Cert.RowNormalize

open Idealize.ShloMosaic Idealize.ShloMosaic.ValueIdx

/-- A column of the first half of the 256 concatenated columns. -/
abbrev lo (k : Fin 128) : Fin 256 := ⟨k.val, by omega⟩
/-- A column of the second half. -/
abbrev hi (k : Fin 128) : Fin 256 := ⟨128 + k.val, by omega⟩

/-- The linear layer over `[h | agg]`, cut at the seam, plus the bias. -/
def lin (h agg : (⟨2, ![100000, 128]⟩ : Shape).Idx → EReal) (w : (⟨2, ![256, 128]⟩ : Shape).Idx → EReal)
    (b : (⟨1, ![128]⟩ : Shape).Idx → EReal) (p : Fin 100000) (q : Fin 128) : EReal :=
  (∑ k : Fin 128, h (ix2 p k) * w (ix2 (lo k) q) + ∑ k : Fin 128, agg (ix2 p k) * w (ix2 (hi k) q)) + b (ix1 q)

/-- A row's sum of squares. -/
def rowsq (h agg : (⟨2, ![100000, 128]⟩ : Shape).Idx → EReal) (w : (⟨2, ![256, 128]⟩ : Shape).Idx → EReal)
    (b : (⟨1, ![128]⟩ : Shape).Idx → EReal) (p : Fin 100000) : EReal :=
  ∑ j : Fin 128, lin h agg w b p j * lin h agg w b p j

/-- The normalized output: each row of the linear layer times the reciprocal square root of its sum of squares. -/
def normalized (h agg : (⟨2, ![100000, 128]⟩ : Shape).Idx → EReal) (w : (⟨2, ![256, 128]⟩ : Shape).Idx → EReal)
    (b : (⟨1, ![128]⟩ : Shape).Idx → EReal) : (⟨2, ![100000, 128]⟩ : Shape).Idx → EReal :=
  fun i => lin h agg w b (i 0) (i 1) * Ideal.rsqrt (rowsq h agg w b (i 0))

/-- A sum over the 256 concatenated columns is the sum over each half. -/
theorem sum_seam {M : Type*} [AddCommMonoid M] (f : Fin 256 → M) :
    ∑ k : Fin 256, f k = ∑ k : Fin 128, f (lo k) + ∑ k : Fin 128, f (hi k) :=
  Fin.sum_univ_add (a := 128) (b := 128) (f : Fin (128 + 128) → M)

/-- Above zero, multiplying by the reciprocal square root is dividing by the square root, on the extended reals. -/
theorem mul_rsqrt_eq_div_sqrt (x s : EReal) (hs : 0 < s) : x * Ideal.rsqrt s = Ideal.div x (Ideal.sqrt s) := by
  induction s using EReal.rec with
  | bot => exact absurd hs (not_lt.2 bot_le)
  | top =>
    rw [Ideal.rsqrt_top, Ideal.sqrt_top, Ideal.div, if_neg EReal.top_ne_zero, EReal.inv_top]
  | coe r =>
    have hr : 0 < r := by exact_mod_cast hs
    have hq : Real.sqrt r ≠ 0 := (Real.sqrt_pos.2 hr).ne'
    rw [Ideal.rsqrt_coe, Ideal.sqrt_coe, if_neg (not_lt.2 hr.le), if_neg hr.ne', if_neg (not_lt.2 hr.le),
      Ideal.div, if_neg (by exact_mod_cast hq), EReal.coe_inv]

end Cert.RowNormalize

end
-- ==== Proof.KernelValue.lean ====
/-
  The kernel's output array as one function of its arguments.

  The grid has 20 points; point `t` reads rows `5000 t … 5000 t + 4999` of `h` and of the aggregated features, the two
  weight halves and the bias row whole, and writes rows `5000 t … 5000 t + 4999` of the output. A row of the block's linear
  layer depends only on the same row of `h` and `agg`, so block `t` of the output is block `t` of the whole-array function
  `normalized`; the 20 blocks tile the 100000 rows (row `i` is in block `i / 5000`), so the output array is `normalized` of the
  arguments.
-/
import proofs.«114389_j8976481649194_1_alg».proof.Proof.Gen.KernelIdeal.Value
import proofs.«114389_j8976481649194_1_alg».proof.Proof.KernelPayload
import proofs.«114389_j8976481649194_1_alg».proof.Proof.HostPrefix
import proofs.«114389_j8976481649194_1_alg».proof.Proof.Spec
import Idealize.ShloMosaic.Lib.Pipeline.Value

noncomputable section

open scoped BigOperators

namespace Cert.KernelIdeal.Whole

open Cert.KernelIdeal Cert.KernelIdeal.Gen Cert.KernelIdeal.Value Cert.KernelIdeal.Payload Cert.KernelIdeal.HostPrefix
open Idealize.ShloMosaic Idealize.ShloMosaic.TcCoe Idealize.SL.Sem Idealize.ShloMosaic.ValueIdx Cert.RowNormalize
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three row-blocked windows sit at block row `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated features as the region finds them: the host operations' term of `h` and the edge lists, never opened. -/
def aggOf (c : Dev nD) : S100000x128.Idx → EReal :=
  Cert.ReferenceIdeal.Read.val_main_v21 (F := Ideal) (m ((c : Thread nD τ).loc main_arg0))
    (m ((c : Thread nD τ).loc main_arg3)) (m ((c : Thread nD τ).loc main_arg4))

theorem aggOf_def (c : Dev nD) : aggOf m c
    = Cert.ReferenceIdeal.Read.val_main_v21 (F := Ideal) (m ((c : Thread nD τ).loc main_arg0))
        (m ((c : Thread nD τ).loc main_arg3)) (m ((c : Thread nD τ).loc main_arg4)) := rfl

/-- The output array's function of the arguments. -/
abbrev result (c : Dev nD) : S100000x128.Idx → EReal :=
  normalized (m ((c : Thread nD τ).loc main_arg0)) (aggOf m c) (m ((c : Thread nD τ).loc main_arg1))
    (m ((c : Thread nD τ).loc main_arg2))

/-! ## The input blocks at a point, read at an index -/

theorem blk_h (c : Dev nD) (t : Fin cfg0.N) (r : Fin 5000) (k : Fin 128) (hr : 5000 * t.val + r.val < 100000) :
    (iblk m c 0 t : Vec Ideal S5000x128 .f32) (ix2 r k)
      = (m ((c : Thread nD τ).loc main_arg0) : S100000x128.Idx → EReal) (ix2 ⟨5000 * t.val + r.val, hr⟩ k) := by
  obtain ⟨e0, e1, -⟩ := idx_facts t
  unfold iblk
  rw [View.read_apply]
  show V m c main_arg0 _ = _
  rw [V_main_arg0]
  refine congrArg (m ((c : Thread nD τ).loc main_arg0) : S100000x128.Idx → EReal) (funext fun a => Fin.ext ?_)
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

/-- Rows `5000 t … 5000 t + 4999` of any [100000, 128] array, as window 1 reads them at point `t`. -/
theorem read_rows1 (t : Fin cfg0.N) (A : S100000x128.Idx → EReal) (r : Fin 5000) (k : Fin 128)
    (hr : 5000 * t.val + r.val < 100000) :
    (((cfg0.win 1).blk t).view.read (Elt Ideal) A : Vec Ideal S5000x128 .f32) (ix2 r k)
      = A (ix2 ⟨5000 * t.val + r.val, hr⟩ k) := by
  obtain ⟨-, -, e0, e1, -⟩ := idx_facts t
  rw [View.read_apply]
  refine congrArg A (funext fun a => Fin.ext ?_)
  match a with
  | ⟨0, _⟩ => show win0_1.index t (0 : Fin 2) * 5000 + 1 * r.val = 5000 * t.val + r.val; rw [e0]; omega
  | ⟨1, _⟩ => show win0_1.index t (1 : Fin 2) * 128 + 1 * k.val = k.val; rw [e1]; omega

/-- Window 1's block is read off the aggregated features. -/
theorem iblk_agg (c : Dev nD) (t : Fin cfg0.N) :
    iblk m c 1 t = ((cfg0.win 1).blk t).view.read (Elt Ideal) (aggOf m c) := by
  unfold iblk
  rw [show V m c (Pipeline.arrRef spec0 1) = aggOf m c from (V_agg m c).trans (aggOf_def m c).symm]

theorem blk_agg (c : Dev nD) (t : Fin cfg0.N) (r : Fin 5000) (k : Fin 128) (hr : 5000 * t.val + r.val < 100000) :
    (iblk m c 1 t : Vec Ideal S5000x128 .f32) (ix2 r k) = aggOf m c (ix2 ⟨5000 * t.val + r.val, hr⟩ k) := by
  rw [iblk_agg]
  exact read_rows1 t (aggOf m c) r k hr

theorem blk_upper (c : Dev nD) (t : Fin cfg0.N) (k q : Fin 128) :
    (iblk m c 2 t : Vec Ideal S128x128 .f32) (ix2 k q)
      = (m ((c : Thread nD τ).loc main_arg1) : S256x128.Idx → EReal) (ix2 (lo k) q) := by
  obtain ⟨-, -, -, -, e0, e1, -⟩ := idx_facts t
  unfold iblk
  rw [View.read_apply]
  show V m c main_v22 _ = _
  rw [V_upper]
  refine extractStridedSlice_apply _ _ _ _ _ fun a => ?_
  match a with
  | ⟨0, _⟩ => show k.val = 0 + (win0_2.index t (0 : Fin 2) * 128 + 1 * k.val); rw [e0]; omega
  | ⟨1, _⟩ => show q.val = 0 + (win0_2.index t (1 : Fin 2) * 128 + 1 * q.val); rw [e1]; omega

theorem blk_lower (c : Dev nD) (t : Fin cfg0.N) (k q : Fin 128) :
    (iblk m c 3 t : Vec Ideal S128x128 .f32) (ix2 k q)
      = (m ((c : Thread nD τ).loc main_arg1) : S256x128.Idx → EReal) (ix2 (hi k) q) := by
  obtain ⟨-, -, -, -, -, -, e0, e1, -⟩ := idx_facts t
  unfold iblk
  rw [View.read_apply]
  show V m c main_v23 _ = _
  rw [V_lower]
  refine extractStridedSlice_apply _ _ _ _ _ fun a => ?_
  match a with
  | ⟨0, _⟩ => show 128 + k.val = 128 + (win0_3.index t (0 : Fin 2) * 128 + 1 * k.val); rw [e0]; omega
  | ⟨1, _⟩ => show q.val = 0 + (win0_3.index t (1 : Fin 2) * 128 + 1 * q.val); rw [e1]; omega

theorem blk_bias (c : Dev nD) (t : Fin cfg0.N) (q : Fin 128) :
    (iblk m c 4 t : Vec Ideal S1x128 .f32) (ix2 (0 : Fin 1) q)
      = (m ((c : Thread nD τ).loc main_arg2) : S128.Idx → EReal) (ix1 q) := by
  obtain ⟨-, -, -, -, -, -, -, -, e0, e1, -⟩ := idx_facts t
  unfold iblk
  rw [View.read_apply]
  show V m c main_v24 _ = _
  rw [V_bias_row]
  have hemb : ((cfg0.win 4).blk t).view.emb (ix2 (0 : Fin 1) q) = (ix2 (0 : Fin 1) q : S1x128.Idx) := by
    funext a; apply Fin.ext
    match a with
    | ⟨0, _⟩ => show win0_4.index t (0 : Fin 2) * 1 + 1 * 0 = 0; rw [e0]
    | ⟨1, _⟩ => show win0_4.index t (1 : Fin 2) * 128 + 1 * q.val = q.val; rw [e1]; omega
  rw [hemb]
  exact shapeCast_a_1a_apply _ _ (0 : Fin 1) q

/-- The block's linear layer at point `t` is the whole-array linear layer at the block's rows. -/
theorem blin_eq (c : Dev nD) (t : Fin cfg0.N) (r : Fin 5000) (q : Fin 128) (hr : 5000 * t.val + r.val < 100000) :
    blin (iblk m c 0 t) (iblk m c 1 t) (iblk m c 2 t) (iblk m c 3 t) (iblk m c 4 t) r q
      = lin (m ((c : Thread nD τ).loc main_arg0)) (aggOf m c) (m ((c : Thread nD τ).loc main_arg1))
          (m ((c : Thread nD τ).loc main_arg2)) ⟨5000 * t.val + r.val, hr⟩ q := by
  unfold blin lin
  refine congrArg₂ (· + ·) (congrArg₂ (· + ·) (Finset.sum_congr rfl fun k _ => ?_) (Finset.sum_congr rfl fun k _ => ?_)) ?_
  · exact congrArg₂ (· * ·) (blk_h m c t r k hr) (blk_upper m c t k q)
  · exact congrArg₂ (· * ·) (blk_agg m c t r k hr) (blk_lower m c t k q)
  · exact blk_bias m c t q

/-- What the body stores at `(r, q)` of its block at point `t` is `result` at row `5000 t + r`, column `q`. -/
theorem point_eq (c : Dev nD) (t : Fin cfg0.N) (r : Fin 5000) (q : Fin 128) (hr : 5000 * t.val + r.val < 100000) :
    k0_pay1 (F := Ideal) (iblk m c 0 t) (iblk m c 1 t) (iblk m c 2 t) (iblk m c 3 t) (iblk m c 4 t) (ix2 r q)
      = result m c (ix2 ⟨5000 * t.val + r.val, hr⟩ q) := by
  refine (pay_apply (iblk m c 0 t) (iblk m c 1 t) (iblk m c 2 t) (iblk m c 3 t) (iblk m c 4 t) r q).trans ?_
  show _ = lin _ _ _ _ _ _ * Ideal.rsqrt (rowsq _ _ _ _ _)
  unfold rowsq
  rw [blin_eq m c t r q hr]
  refine congrArg (fun s => _ * Ideal.rsqrt s) (Finset.sum_congr rfl fun j _ => ?_)
  rw [blin_eq m c t r j hr]

/-- WHAT POINT `t` WRITES BACK is block `t` of `result`. -/
theorem flushed_eq (c : Dev nD) (t : Fin cfg0.N) :
    (dats m 0 c).flushed 5 t = ((cfg0.win 5).blk t).view.read (Elt Ideal) (result m c) := by
  have hN : t.val < 20 := by have h := t.isLt; have e : cfg0.N = 20 := N_0; omega
  obtain ⟨-, -, -, -, -, -, -, -, -, -, e0, e1⟩ := idx_facts t
  show (cfg0.win 5).cut (grid0.coords t) ((dats m 0 c).after 5 t) = _
  rw [after0_5]
  unfold out0_5
  rw [View.canon_unit_zero hz]
  simp only [View.ld_unit_zero (S := S5000x128) hz, View.ld_unit_zero (S := S128x128) hz, View.ld_unit_zero (S := S1x128) hz]
  funext j
  have h0 : (j 0).val < 5000 := (j 0).isLt
  have h1 : (j 1).val < 128 := (j 1).isLt
  have hr : 5000 * t.val + (j 0).val < 100000 := by omega
  have hj : j = (ix2 (⟨(j 0).val, h0⟩ : Fin 5000) (⟨(j 1).val, h1⟩ : Fin 128) : S5000x128.Idx) :=
    funext fun a => by match a with | ⟨0, _⟩ => rfl | ⟨1, _⟩ => rfl
  show k0_pay1 (F := Ideal) (iblk m c 0 t) (iblk m c 1 t) (iblk m c 2 t) (iblk m c 3 t) (iblk m c 4 t) j
    = result m c (((cfg0.win 5).blk t).view.emb j)
  refine (congrArg (k0_pay1 (F := Ideal) (iblk m c 0 t) (iblk m c 1 t) (iblk m c 2 t) (iblk m c 3 t) (iblk m c 4 t)) hj).trans ?_
  refine (point_eq m c t ⟨(j 0).val, h0⟩ ⟨(j 1).val, h1⟩ hr).trans ?_
  refine congrArg (result m c) (funext fun a => Fin.ext ?_)
  match a with
  | ⟨0, _⟩ => show 5000 * t.val + (j 0).val = win0_5.index t (0 : Fin 2) * 5000 + 1 * (j 0).val; rw [e0]; omega
  | ⟨1, _⟩ => show (j 1).val = win0_5.index t (1 : Fin 2) * 128 + 1 * (j 1).val; rw [e1]; omega

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every row is in the block of the point `row / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- THE ARRAY after the run is `result`. -/
theorem final (c : Dev nD) : (dats m 0 c).arrAt 5 cfg0.N = result m c :=
  (dats m 0 c).arrAt_eq_of_cover 5 (result m c) (fun t _ => flushed_eq m c t) cover

/-- The kernel's run, read: the output array at `result`, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RowNormPositive.lean ====
/-
  Every row of the affine output has a positive sum of squares, read off the precondition.

  The precondition ends in the conjunction of the three finiteness tests with one more test: for every row, the sum over
  the row of the squared entries of `concat(h, agg) @ weight + bias` is greater than zero. The reference program computes
  the same row sums (its stage `val_main_v28`) by the same chain of operations, so the test, read at a row, is the
  positivity of that stage at the row. On such a row dividing by the square root of the sum and multiplying by its
  reciprocal square root agree on the extended reals; on a row of zeros they do not (`0 / 0` against `0 * ⊤`), which is
  why the domain carries the test.
-/
import proofs.«114389_j8976481649194_1_alg».proof.Pre_finite_inputs
import proofs.«114389_j8976481649194_1_alg».proof.Proof.Gen.Pre_finite_inputs
import proofs.«114389_j8976481649194_1_alg».proof.Proof.Gen.ReferenceIdeal.Read
import Idealize.ShloMosaic.Lib.ReduceAll

noncomputable section

namespace Cert.RowNormPositive

open Idealize.ShloMosaic

/-- A shape of rank zero has exactly one index. -/
instance subsingleton_scalar_idx : Subsingleton (⟨0, ![]⟩ : Shape).Idx := ⟨fun a b => funext fun d => d.elim0⟩

/-- On the extended reals, the comparison "greater than" against the splat of the f32 zero, read at an index where it
    answers 1, says that the left entry there is positive. -/
theorem pos_of_ogt_zero {s : Shape} (a : FVec Ideal s .f32) (hb : (⟨0, ![]⟩ : Shape).BroadcastsInDim s (![] : Fin 0 → Fin s.rank))
    (i : s.Idx)
    (h : cmpf .ogt a (broadcastInDim s ![] hb (constant (F := Ideal) (⟨0, ![]⟩ : Shape) .f32 0x00000000#32)) i = 1#1) :
    (0 : EReal) < a i := by
  have h' : Ideal.cmp .ogt (a i) (Ideal.ofBits .f32 0x00000000#32) = 1#1 := h
  rw [Ideal.ofBits_zero_f32] at h'
  by_cases hp : (0 : EReal) < a i
  · exact hp
  · exfalso
    simp only [Ideal.cmp, hp, decide_false] at h'
    exact absurd h' (by decide)

/-- The precondition's last conjunct, read at a row: the reference's row sum of squares is positive there. The
    precondition's row sums and the reference's are the same chain of operations over the same arguments (the reference
    only wraps the constant one of its clipping step in an identity), so the comparison the precondition makes is a
    comparison of the reference's stage against zero. -/
theorem rowsq_pos
    (x0 : (⟨Cert.ReferenceIdeal.S100000x128, .f32⟩ : BufTy).Contents (Elt Ideal))
    (x1 : (⟨Cert.ReferenceIdeal.S256x128, .f32⟩ : BufTy).Contents (Elt Ideal))
    (x2 : (⟨Cert.ReferenceIdeal.S128, .f32⟩ : BufTy).Contents (Elt Ideal))
    (x3 x4 : (⟨Cert.ReferenceIdeal.S1600000, .i32⟩ : BufTy).Contents (Elt Ideal))
    (hpre : Cert.Pre_finite_inputs.fn (F := Ideal) x0 x1 x2 x3 x4 = fun _ => 1#1)
    (i : Cert.ReferenceIdeal.S100000.Idx) :
    (0 : EReal) < Cert.ReferenceIdeal.Read.val_main_v28 (F := Ideal) x0 x1 x2 x3 x4 i := by
  have h0 := congrFun hpre ValueIdx.ix0
  unfold Cert.Pre_finite_inputs.fn Cert.Pre_finite_inputs.fn_part1 Cert.Pre_finite_inputs.fn_part2 at h0
  dsimp only at h0
  obtain ⟨-, h2⟩ := IntOp.andi_eq_one.1 h0
  have h3 := Host.reduce_andi_all _ _ _ _ _ h2 i
  exact pos_of_ogt_zero (Cert.ReferenceIdeal.Read.val_main_v28 (F := Ideal) x0 x1 x2 x3 x4) _ i h3

end Cert.RowNormPositive
-- ==== Proof.ReferenceValue.lean ====
/-
  The reference program's result, index by index, is the specification's function.

  The reference builds `concat(h, agg) @ weight + bias`, squares it, sums each row, takes the square root and divides.
  Here `agg`, the aggregated neighbour features, is kept as one opaque array: nothing below looks inside it. Read at
  row `p` and column `q`:
    * the affine stage is the contraction over the 256 concatenated columns plus the bias; the concatenation reads `h` on
      its first 128 columns and `agg` on its last 128, so cutting the sum at the seam gives the specification's `lin`;
    * the row-sum stage is zero plus the sum over the row of the squares of the affine stage, the specification's `rowsq`;
    * the result is the affine stage divided by the square root of the row sum.
  Under the precondition every row sum is positive, and above zero dividing by the square root is multiplying by the
  reciprocal square root, which is how the specification spells the normalized output.
-/
import proofs.«114389_j8976481649194_1_alg».proof.Proof.Spec
import proofs.«114389_j8976481649194_1_alg».proof.Proof.Gen.ReferenceIdeal.Read
import proofs.«114389_j8976481649194_1_alg».proof.Proof.RowNormPositive
import Idealize.ShloMosaic.Lib.ValueIdx
import Idealize.ShloMosaic.Lib.Pipeline.Value
import Idealize.ShloMosaic.PureOps.Ideal.Laws

noncomputable section

open scoped BigOperators

namespace Cert.ReferenceValue

open Idealize.ShloMosaic Idealize.ShloMosaic.ValueIdx Cert.ReferenceIdeal Cert.ReferenceIdeal.Read

variable (x0 : (⟨S100000x128, .f32⟩ : BufTy).Contents (Elt Ideal))
  (x1 : (⟨S256x128, .f32⟩ : BufTy).Contents (Elt Ideal))
  (x2 : (⟨S128, .f32⟩ : BufTy).Contents (Elt Ideal))
  (x3 x4 : (⟨S1600000, .i32⟩ : BufTy).Contents (Elt Ideal))

/-- The aggregated neighbour features, as the reference computes them; opaque throughout. -/
local notation "agg" => val_main_v21 (F := Ideal) x0 x3 x4

/-- On a column of its first half the concatenation reads the node features. -/
theorem concat_lo (p : Fin 100000) (q : Fin 128) (k : Fin 128) :
    val_main_v22 (F := Ideal) x0 x3 x4 (lidx_main_v23 (ix2 p q) (Cert.RowNormalize.lo k)) = x0 (ix2 p k) := by
  unfold val_main_v22
  refine concatenate_pair_apply_left (t := S100000x256) (1 : Fin 2) x0 agg _
    (lidx_main_v23 (ix2 p q) (Cert.RowNormalize.lo k)) rfl (ix2 p k) ?_
  intro b
  match b with
  | ⟨0, _⟩ => rfl
  | ⟨1, _⟩ => rfl

/-- On a column of its second half the concatenation reads the aggregated features, 128 columns to the left. -/
theorem concat_hi (p : Fin 100000) (q : Fin 128) (k : Fin 128) :
    val_main_v22 (F := Ideal) x0 x3 x4 (lidx_main_v23 (ix2 p q) (Cert.RowNormalize.hi k)) = agg (ix2 p k) := by
  unfold val_main_v22
  refine concatenate_pair_apply_right (t := S100000x256) (1 : Fin 2) x0 agg _
    (lidx_main_v23 (ix2 p q) (Cert.RowNormalize.hi k)) rfl rfl (ix2 p k) ?_ ?_
  · intro b hb
    match b, hb with
    | ⟨0, _⟩, _ => rfl
    | ⟨1, _⟩, hb => exact absurd rfl hb
  · show k.val + 128 = 128 + k.val
    omega

/-- The affine stage at row `p`, column `q`: the contraction cut at the seam, plus the bias. -/
theorem lin_eq (p : Fin 100000) (q : Fin 128) :
    val_main_v26 (F := Ideal) x0 x1 x2 x3 x4 (ix2 p q) = Cert.RowNormalize.lin x0 agg x1 x2 p q := by
  rw [val_main_v26_apply, val_main_v23_apply, val_main_v25_apply, val_main_v24_apply, Ideal.addf_def]
  unfold Cert.RowNormalize.lin
  refine congrArg₂ (· + ·) ?_ (congrArg x2 (funext fun a => by match a with | ⟨0, _⟩ => rfl))
  refine (Cert.RowNormalize.sum_seam _).trans ?_
  refine congrArg₂ (· + ·) (Finset.sum_congr rfl fun k _ => ?_) (Finset.sum_congr rfl fun k _ => ?_)
  · exact congrArg₂ (· * ·) (concat_lo x0 x3 x4 p q k)
      (congrArg x1 (funext fun a => by match a with | ⟨0, _⟩ => rfl | ⟨1, _⟩ => rfl))
  · exact congrArg₂ (· * ·) (concat_hi x0 x3 x4 p q k)
      (congrArg x1 (funext fun a => by match a with | ⟨0, _⟩ => rfl | ⟨1, _⟩ => rfl))

/-- The row-sum stage at row `p`: the sum over the row of the squared affine stage. -/
theorem rowsum_eq (p : Fin 100000) :
    val_main_v28 (F := Ideal) x0 x1 x2 x3 x4 (ix1 p) = Cert.RowNormalize.rowsq x0 agg x1 x2 p := by
  rw [val_main_v28_apply, show val_main_cst_5 (F := Ideal) _ = (0 : EReal) from Ideal.ofBits_zero_f32, zero_add]
  unfold Cert.RowNormalize.rowsq
  refine Finset.sum_congr rfl fun k _ => ?_
  have e : idx_main_v28 (ix1 p) k = ix2 p k := funext fun a => by match a with | ⟨0, _⟩ => rfl | ⟨1, _⟩ => rfl
  rw [val_main_v27_apply, Ideal.mulf_def, e, lin_eq]

/-- The reference's result at row `p`, column `q`: the affine stage over the square root of the row sum. -/
theorem ref_apply (p : Fin 100000) (q : Fin 128) :
    val_main_v32 (F := Ideal) x0 x1 x2 x3 x4 (ix2 p q)
      = Ideal.div (Cert.RowNormalize.lin x0 agg x1 x2 p q) (Ideal.sqrt (Cert.RowNormalize.rowsq x0 agg x1 x2 p)) := by
  have e : idx_main_v29 (idx_main_v31 (ix2 p q)) = ix1 p := funext fun a => by match a with | ⟨0, _⟩ => rfl
  rw [val_main_v32_apply, val_main_v31_apply, val_main_v30_apply, val_main_v29_apply, Ideal.hostDivf_def,
    Ideal.hostUnary_sqrt_def, e, rowsum_eq, lin_eq]

/-- Under the precondition every row's sum of squares, as the specification spells it, is positive. -/
theorem rowsq_pos' (hpre : Cert.Pre_finite_inputs.fn (F := Ideal) x0 x1 x2 x3 x4 = fun _ => 1#1) (p : Fin 100000) :
    (0 : EReal) < Cert.RowNormalize.rowsq x0 agg x1 x2 p := by
  rw [← rowsum_eq]
  exact Cert.RowNormPositive.rowsq_pos x0 x1 x2 x3 x4 hpre (ix1 p)

/-- Under the precondition the reference's result is the specification's normalized output. -/
theorem ref_eq_normalized (hpre : Cert.Pre_finite_inputs.fn (F := Ideal) x0 x1 x2 x3 x4 = fun _ => 1#1) :
    val_main_v32 (F := Ideal) x0 x1 x2 x3 x4 = Cert.RowNormalize.normalized x0 agg x1 x2 := by
  funext i
  obtain ⟨p, q, rfl⟩ : ∃ (p : Fin 100000) (q : Fin 128), i = ix2 p q := ⟨i 0, i 1, eq_ix2 i⟩
  show _ = Cert.RowNormalize.lin x0 agg x1 x2 p q * Ideal.rsqrt (Cert.RowNormalize.rowsq x0 agg x1 x2 p)
  rw [ref_apply]
  exact (Cert.RowNormalize.mul_rsqrt_eq_div_sqrt _ _ (rowsq_pos' x0 x1 x2 x3 x4 hpre p)).symm

end Cert.ReferenceValue

end
-- ==== Proof.lean ====
/-
  The certificate of the TAGConv encoder kernel against its jnp reference: both compute, from node features `h`, a weight
  matrix, a bias and an edge list, the linear layer over `[h | agg]` (`agg` the degree-normalized one-hop aggregation of `h`
  over the edges) with every row scaled to unit Euclidean norm.

  The aggregation is computed on the host by the same operations in both programs and is carried as one term. The kernel
  forms the linear layer as two 128-column contractions, one for `h` and one for `agg`, over 20 row blocks; the reference
  as one 256-column contraction over the concatenation: a sum cut at its seam. The kernel multiplies each row by the
  reciprocal square root of its sum of squares, the reference divides it by the square root: equal on the extended reals
  wherever the sum of squares is positive, which the precondition states (on a row that is exactly zero the reference
  computes 0 / 0). No finiteness of the inputs is used.
-/
import proofs.«114389_j8976481649194_1_alg».proof.Defs
import proofs.«114389_j8976481649194_1_alg».proof.Proof.Gen.Kernel
import proofs.«114389_j8976481649194_1_alg».proof.Proof.Gen.Kernel.Frame
import proofs.«114389_j8976481649194_1_alg».proof.Proof.Gen.KernelIdeal
import proofs.«114389_j8976481649194_1_alg».proof.Proof.Gen.KernelIdeal.Frame
import proofs.«114389_j8976481649194_1_alg».proof.Proof.Gen.KernelIdeal.Value
import proofs.«114389_j8976481649194_1_alg».proof.Proof.Gen.ReferenceIdeal
import proofs.«114389_j8976481649194_1_alg».proof.Proof.Gen.ReferenceIdeal.Run
import proofs.«114389_j8976481649194_1_alg».proof.Proof.Gen.ReferenceIdeal.Read
import proofs.«114389_j8976481649194_1_alg».proof.Proof.Gen.Pre_finite_inputs
import proofs.«114389_j8976481649194_1_alg».proof.Proof.KernelValue
import proofs.«114389_j8976481649194_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at `normalized` of the arguments: the kernel's by its blocks, the reference's by
    its operations read index by index, under the precondition's positive row norms. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2]
  exact Cert.ReferenceValue.ref_eq_normalized _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
